-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000x32 : Shape := ⟨2, ![100000, 32]⟩
abbrev S10000x64 : Shape := ⟨2, ![10000, 64]⟩
abbrev S10000x32 : Shape := ⟨2, ![10000, 32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 139
  | .vmem => 15
  | .smem => 0
  | _ => 0

abbrev hbmTy0_0 (i : Nat) : BufTy := match i % 128 with
  | 0 => ⟨S100000x64, .f32⟩
  | 1 => ⟨S2x1600000, .i32⟩
  | 2 => ⟨S64x32, .f32⟩
  | 3 => ⟨S32, .f32⟩
  | 4 => ⟨S32x32, .f32⟩
  | 5 => ⟨S32, .f32⟩
  | 6 => ⟨S32x1, .f32⟩
  | 7 => ⟨S1, .f32⟩
  | 8 => ⟨S100000x32, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x32, .f32⟩
  | 58 => ⟨S1700000x1, .f32⟩
  | 59 => ⟨S1700000x32, .f32⟩
  | 60 => ⟨S1700000x32, .f32⟩
  | 61 => ⟨S_, .f32⟩
  | 62 => ⟨S100000x32, .f32⟩
  | 63 => ⟨S1700000x1, .i32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S100000x32, .f32⟩
  | 70 => ⟨S100000x32, .f32⟩
  | 71 => ⟨S100000x32, .f32⟩
  | 72 => ⟨S100000, .i32⟩
  | 73 => ⟨S1x1600000, .i32⟩
  | 74 => ⟨S1600000, .i32⟩
  | 75 => ⟨S1700000, .i32⟩
  | 76 => ⟨S1x1600000, .i32⟩
  | 77 => ⟨S1600000, .i32⟩
  | 78 => ⟨S1700000, .i32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x32, .f32⟩
  | 121 => ⟨S1700000x1, .f32⟩
  | 122 => ⟨S1700000x32, .f32⟩
  | 123 => ⟨S1700000x32, .f32⟩
  | 124 => ⟨S_, .f32⟩
  | 125 => ⟨S100000x32, .f32⟩
  | 126 => ⟨S1700000x1, .i32⟩
  | 127 => ⟨S100000x32, .f32⟩
  | _ => ⟨S100000x64, .f32⟩

abbrev hbmTy0_1 (i : Nat) : BufTy := match i % 128 with
  | 0 => ⟨S1x32, .f32⟩
  | 1 => ⟨S100000x32, .f32⟩
  | 2 => ⟨S100000x32, .f32⟩
  | 3 => ⟨S_, .f32⟩
  | 4 => ⟨S100000x32, .f32⟩
  | 5 => ⟨S100000x32, .f32⟩
  | 6 => ⟨S100000x1, .f32⟩
  | 7 => ⟨S1x1, .f32⟩
  | 8 => ⟨S100000x1, .f32⟩
  | 9 => ⟨S100000x1, .f32⟩
  | 10 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S32x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x1, .f32⟩
  | .local _ .vmem, ⟨13, _⟩ => ⟨S10000x1, .f32⟩
  | .local _ .vmem, ⟨14, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S10000x64_S64x32_S10000x32_1_0_0_1_n_n_wf : DotDims.WF S10000x64 S64x32 S10000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x1.size a ≤ S32x1.size a
  hwx2_1 : ∀ i : grid2.Coords, EltTy.bits .f32 = 32 ∨ (Rect.block (s := S32x1) S32x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)

variable [Facts₀]

def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v95) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v96) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S100000x32 : Shape := ⟨2, ![100000, 32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 139
  | .vmem => 0
  | .smem => 0
  | _ => 0

abbrev hbmTy0_0 (i : Nat) : BufTy := match i % 128 with
  | 0 => ⟨S100000x64, .f32⟩
  | 1 => ⟨S2x1600000, .i32⟩
  | 2 => ⟨S64x32, .f32⟩
  | 3 => ⟨S32, .f32⟩
  | 4 => ⟨S32x32, .f32⟩
  | 5 => ⟨S32, .f32⟩
  | 6 => ⟨S32x1, .f32⟩
  | 7 => ⟨S1, .f32⟩
  | 8 => ⟨S100000x32, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x32, .f32⟩
  | 58 => ⟨S1700000x1, .f32⟩
  | 59 => ⟨S1700000x32, .f32⟩
  | 60 => ⟨S1700000x32, .f32⟩
  | 61 => ⟨S_, .f32⟩
  | 62 => ⟨S100000x32, .f32⟩
  | 63 => ⟨S1700000x1, .i32⟩
  | 64 => ⟨S100000x32, .f32⟩
  | 65 => ⟨S1x32, .f32⟩
  | 66 => ⟨S100000x32, .f32⟩
  | 67 => ⟨S100000x32, .f32⟩
  | 68 => ⟨S_, .f32⟩
  | 69 => ⟨S100000x32, .f32⟩
  | 70 => ⟨S100000x32, .f32⟩
  | 71 => ⟨S100000x32, .f32⟩
  | 72 => ⟨S100000, .i32⟩
  | 73 => ⟨S1x1600000, .i32⟩
  | 74 => ⟨S1600000, .i32⟩
  | 75 => ⟨S1700000, .i32⟩
  | 76 => ⟨S1x1600000, .i32⟩
  | 77 => ⟨S1600000, .i32⟩
  | 78 => ⟨S1700000, .i32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x32, .f32⟩
  | 121 => ⟨S1700000x1, .f32⟩
  | 122 => ⟨S1700000x32, .f32⟩
  | 123 => ⟨S1700000x32, .f32⟩
  | 124 => ⟨S_, .f32⟩
  | 125 => ⟨S100000x32, .f32⟩
  | 126 => ⟨S1700000x1, .i32⟩
  | 127 => ⟨S100000x32, .f32⟩
  | _ => ⟨S100000x64, .f32⟩

abbrev hbmTy0_1 (i : Nat) : BufTy := match i % 128 with
  | 0 => ⟨S1x32, .f32⟩
  | 1 => ⟨S100000x32, .f32⟩
  | 2 => ⟨S100000x32, .f32⟩
  | 3 => ⟨S_, .f32⟩
  | 4 => ⟨S100000x32, .f32⟩
  | 5 => ⟨S100000x32, .f32⟩
  | 6 => ⟨S100000x1, .f32⟩
  | 7 => ⟨S1x1, .f32⟩
  | 8 => ⟨S100000x1, .f32⟩
  | 9 => ⟨S100000x1, .f32⟩
  | 10 => ⟨S100000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x64_S64x32_S100000x32_1_0_0_1_n_n_wf : DotDims.WF S100000x64 S64x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []

variable [Facts₀]

def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The kernel program's run with its RESULT kept: every weakly fair execution of @main terminates without a fault, the
  argument arrays end as launched, and the result buffer ends at what the last host stretch leaves in it — the contents
  `W12` that the fold through @main's three tiled products and the host stretches between them names. This is the
  frame's launch over the same twelve segments, read at one more buffer of the final state.
-/
import proofs.«173061_j14791867368180_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v100) = W12 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v100 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.WholeRun

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«173061_j14791867368180_1_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.FirstProduct.lean ====
/-
  The first matrix product, x · W1 ([100000, 64] × [64, 32]), as the kernel computes it: ten grid points, each taking a band of
  10000 rows of x and the whole of W1 and writing back the same band of rows of the product. Read entry by entry, each band is the
  matching band of the ONE whole product the host's contraction of the two arrays states, and the ten bands tile the result; so the
  result array ends holding that whole product. Stated for any contents of the buffers at the region's entry, and for any
  dimension-number record with the lists of a rows-times-columns contraction.
-/
import proofs.«173061_j14791867368180_1_alg».proof.Proof.Gen.KernelIdeal.Frame
import proofs.«173061_j14791867368180_1_alg».proof.Proof.LibDotGeneralEntry
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx
open scoped BigOperators

namespace Cert.KernelIdeal.FirstProduct

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One entry of what the body stores: row `p` of the left block times column `q` of the right block, a plain sum over
    the 64 shared positions (the change of float format on the way in is the identity on the extended reals, and the
    accumulator starts at zero). -/
theorem stored_entry (x0 : Vec Ideal S10000x64 .f32) (x1 : Vec Ideal S64x32 .f32) (p : Fin 10000) (q : Fin 32) :
    k0_pay1 (F := Ideal) x0 x1 (ix2 p q) = ∑ j : Fin 64, x0 (ix2 p j) * x1 (ix2 j q) := by
  unfold k0_pay1
  exact Ideal.matmul_rows_cols dot_S10000x64_S64x32_S10000x32_1_0_0_1_n_n rfl rfl rfl rfl rfl rfl none _ _ p q

/-- Where the three windows sit at grid point `t`: the left operand's and the result's block is the `t`-th band of 10000
    rows, the right operand's block is the whole matrix. Decided over the ten points. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The left operand's block at point `t`, at row `p` and position `j`, is the array's row `10000 t + p`. -/
theorem left_block_entry (c : Dev nD) (t : Fin cfg0.N) (p : Fin 10000) (j : Fin 64) (P : Fin 100000)
    (hP : P.val = t.val * 10000 + p.val) :
    (iblk0 V c 0 t : Vec Ideal S10000x64 .f32) (ix2 p j) = (V c (Pipeline.arrRef spec0 0) : S100000x64.Idx → EReal) (ix2 P j) := by
  obtain ⟨e0, e1, -, -, -, -, -⟩ := block_positions t
  unfold iblk0
  show V c (Pipeline.arrRef spec0 0) (((cfg0.win 0).blk t).view.emb (ix2 p j)) = _
  refine congrArg _ (funext fun a => Fin.ext ?_)
  match a with
  | ⟨0, _⟩ => show win0_0.index t (0 : Fin 2) * 10000 + 1 * p.val = P.val; rw [e0, hP]; omega
  | ⟨1, _⟩ => show win0_0.index t (1 : Fin 2) * 64 + 1 * j.val = j.val; rw [e1]; omega

/-- The right operand's block at any point is the whole matrix. -/
theorem right_block_entry (c : Dev nD) (t : Fin cfg0.N) (j : Fin 64) (q : Fin 32) :
    (iblk0 V c 1 t : Vec Ideal S64x32 .f32) (ix2 j q) = (V c (Pipeline.arrRef spec0 1) : S64x32.Idx → EReal) (ix2 j q) := by
  obtain ⟨-, -, e2, e3, -, -, -⟩ := block_positions t
  unfold iblk0
  show V c (Pipeline.arrRef spec0 1) (((cfg0.win 1).blk t).view.emb (ix2 j q)) = _
  refine congrArg _ (funext fun a => Fin.ext ?_)
  match a with
  | ⟨0, _⟩ => show win0_1.index t (0 : Fin 2) * 64 + 1 * j.val = j.val; rw [e2]; omega
  | ⟨1, _⟩ => show win0_1.index t (1 : Fin 2) * 32 + 1 * q.val = q.val; rw [e3]; omega

variable (D : DotDims S100000x64 S64x32 S100000x32)
  (hlb : D.lhsBatch = []) (hln : D.lhsNonContracting = [0]) (hlc : D.lhsContracting = [1])
  (hrb : D.rhsBatch = []) (hrn : D.rhsNonContracting = [1]) (hrc : D.rhsContracting = [0])

/-- The whole product of the two arrays as the region finds them, as the host's contraction states it. -/
abbrev product (c : Dev nD) : S100000x32.Idx → EReal :=
  Host.dotGeneral (F := Ideal) (φ₁ := .f32) (φ₂ := .f32) D none (V c (Pipeline.arrRef spec0 0)) (V c (Pipeline.arrRef spec0 1))

include hlb hln hlc hrb hrn hrc in
/-- What point `t` writes back is the `t`-th band of rows of the whole product. -/
theorem written_back (c : Dev nD) (t : Fin cfg0.N) :
    (dat0 V c).flushed 2 t = ((cfg0.win 2).blk t).view.read (Elt Ideal) (product V D c) := by
  obtain ⟨-, -, -, -, e4, e5, ht⟩ := block_positions t
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x32) zero_offsets]
  funext y
  obtain ⟨p, q, rfl⟩ : ∃ (p : Fin 10000) (q : Fin 32), y = ix2 p q := ⟨y 0, y 1, eq_ix2 y⟩
  refine (stored_entry _ _ p q).trans ?_
  have hPlt : t.val * 10000 + p.val < 100000 := by have := p.isLt; omega
  have hemb : ((cfg0.win 2).blk t).view.emb (ix2 p q) = (ix2 (⟨t.val * 10000 + p.val, hPlt⟩ : Fin 100000) q : S100000x32.Idx) := by
    funext a
    refine Fin.ext ?_
    match a with
    | ⟨0, _⟩ => show win0_2.index t (0 : Fin 2) * 10000 + 1 * p.val = t.val * 10000 + p.val; rw [e4]; omega
    | ⟨1, _⟩ => show win0_2.index t (1 : Fin 2) * 32 + 1 * q.val = q.val; rw [e5]; omega
  show _ = product V D c (((cfg0.win 2).blk t).view.emb (ix2 p q))
  rw [hemb]
  refine Eq.trans ?_ (Ideal.dotGeneral_rows_cols D hlb hln hlc hrb hrn hrc none .single _ _ ⟨t.val * 10000 + p.val, hPlt⟩ q).symm
  refine Finset.sum_congr rfl fun j _ => ?_
  rw [left_block_entry V c t p j ⟨t.val * 10000 + p.val, hPlt⟩ rfl, right_block_entry V c t j q]

/-- Every entry of the result array lies in the band of the point its row falls in. -/
theorem bands_cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  let t : Fin cfg0.N := ⟨(i 0).val / 10000, by rw [hN]; omega⟩
  obtain ⟨-, -, -, -, e4, e5, -⟩ := block_positions t
  have e4' : win0_2.index t (0 : Fin 2) = (i 0).val / 10000 := e4
  refine ⟨t, flush0_2 t, ?_⟩
  show i ∈ ((View.whole (Pipeline.arrRef spec0 2)).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; rw [e4']; omega
  | ⟨1, _⟩ => show win0_2.index t (1 : Fin 2) * 32 ≤ (i 1).val ∧ (i 1).val < win0_2.index t (1 : Fin 2) * 32 + 32; rw [e5]; omega

include hlb hln hlc hrb hrn hrc in
/-- So the result array, after the ten points, holds the whole product. -/
theorem result_array (c : Dev nD) : (dat0 V c).arrAt 2 cfg0.N = product V D c :=
  (dat0 V c).arrAt_eq_of_cover 2 (product V D c) (fun t _ => written_back V D hlb hln hlc hrb hrn hrc c t) (bands_cover)

end Cert.KernelIdeal.FirstProduct

end
-- ==== Proof.SecondProduct.lean ====
/-
  The second matrix product, h · W2 ([100000, 32] × [32, 32]), as the kernel computes it: ten grid points, each taking a band of
  10000 rows of h and the whole of W2 and writing back the same band of rows of the product. Read entry by entry, each band is the
  matching band of the ONE whole product the host's contraction of the two arrays states, and the ten bands tile the result; so the
  result array ends holding that whole product. Stated for any contents of the buffers at the region's entry, and for any
  dimension-number record with the lists of a rows-times-columns contraction.
-/
import proofs.«173061_j14791867368180_1_alg».proof.Proof.Gen.KernelIdeal.Frame
import proofs.«173061_j14791867368180_1_alg».proof.Proof.LibDotGeneralEntry
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx
open scoped BigOperators

namespace Cert.KernelIdeal.SecondProduct

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One entry of what the body stores: row `p` of the left block times column `q` of the right block, a plain sum over
    the 32 shared positions (the change of float format on the way in is the identity on the extended reals, and the
    accumulator starts at zero). -/
theorem stored_entry (x0 : Vec Ideal S10000x32 .f32) (x1 : Vec Ideal S32x32 .f32) (p : Fin 10000) (q : Fin 32) :
    k1_pay1 (F := Ideal) x0 x1 (ix2 p q) = ∑ j : Fin 32, x0 (ix2 p j) * x1 (ix2 j q) := by
  unfold k1_pay1
  rw [shapeCast_self]
  exact Ideal.matmul_rows_cols dot_S10000x32_S32x32_S10000x32_1_0_0_1_n_n rfl rfl rfl rfl rfl rfl none _ _ p q

/-- Where the three windows sit at grid point `t`: the left operand's and the result's block is the `t`-th band of 10000
    rows, the right operand's block is the whole matrix. Decided over the ten points. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- The left operand's block at point `t`, at row `p` and position `j`, is the array's row `10000 t + p`. -/
theorem left_block_entry (c : Dev nD) (t : Fin cfg1.N) (p : Fin 10000) (j : Fin 32) (P : Fin 100000)
    (hP : P.val = t.val * 10000 + p.val) :
    (iblk1 V c 0 t : Vec Ideal S10000x32 .f32) (ix2 p j) = (V c (Pipeline.arrRef spec1 0) : S100000x32.Idx → EReal) (ix2 P j) := by
  obtain ⟨e0, e1, -, -, -, -, -⟩ := block_positions t
  unfold iblk1
  show V c (Pipeline.arrRef spec1 0) (((cfg1.win 0).blk t).view.emb (ix2 p j)) = _
  refine congrArg _ (funext fun a => Fin.ext ?_)
  match a with
  | ⟨0, _⟩ => show win1_0.index t (0 : Fin 2) * 10000 + 1 * p.val = P.val; rw [e0, hP]; omega
  | ⟨1, _⟩ => show win1_0.index t (1 : Fin 2) * 32 + 1 * j.val = j.val; rw [e1]; omega

/-- The right operand's block at any point is the whole matrix. -/
theorem right_block_entry (c : Dev nD) (t : Fin cfg1.N) (j : Fin 32) (q : Fin 32) :
    (iblk1 V c 1 t : Vec Ideal S32x32 .f32) (ix2 j q) = (V c (Pipeline.arrRef spec1 1) : S32x32.Idx → EReal) (ix2 j q) := by
  obtain ⟨-, -, e2, e3, -, -, -⟩ := block_positions t
  unfold iblk1
  show V c (Pipeline.arrRef spec1 1) (((cfg1.win 1).blk t).view.emb (ix2 j q)) = _
  refine congrArg _ (funext fun a => Fin.ext ?_)
  match a with
  | ⟨0, _⟩ => show win1_1.index t (0 : Fin 2) * 32 + 1 * j.val = j.val; rw [e2]; omega
  | ⟨1, _⟩ => show win1_1.index t (1 : Fin 2) * 32 + 1 * q.val = q.val; rw [e3]; omega

variable (D : DotDims S100000x32 S32x32 S100000x32)
  (hlb : D.lhsBatch = []) (hln : D.lhsNonContracting = [0]) (hlc : D.lhsContracting = [1])
  (hrb : D.rhsBatch = []) (hrn : D.rhsNonContracting = [1]) (hrc : D.rhsContracting = [0])

/-- The whole product of the two arrays as the region finds them, as the host's contraction states it. -/
abbrev product (c : Dev nD) : S100000x32.Idx → EReal :=
  Host.dotGeneral (F := Ideal) (φ₁ := .f32) (φ₂ := .f32) D none (V c (Pipeline.arrRef spec1 0)) (V c (Pipeline.arrRef spec1 1))

include hlb hln hlc hrb hrn hrc in
/-- What point `t` writes back is the `t`-th band of rows of the whole product. -/
theorem written_back (c : Dev nD) (t : Fin cfg1.N) :
    (dat1 V c).flushed 2 t = ((cfg1.win 2).blk t).view.read (Elt Ideal) (product V D c) := by
  obtain ⟨-, -, -, -, e4, e5, ht⟩ := block_positions t
  show (cfg1.win 2).cut (grid1.coords t) ((dat1 V c).after 2 t) = _
  rw [after1_2]
  unfold out1_2
  rw [View.canon_unit_zero zero_offsets]
  simp only [View.ld_unit_zero (S := S10000x32) zero_offsets, View.ld_unit_zero (S := S32x32) zero_offsets]
  funext y
  obtain ⟨p, q, rfl⟩ : ∃ (p : Fin 10000) (q : Fin 32), y = ix2 p q := ⟨y 0, y 1, eq_ix2 y⟩
  refine (stored_entry _ _ p q).trans ?_
  have hPlt : t.val * 10000 + p.val < 100000 := by have := p.isLt; omega
  have hemb : ((cfg1.win 2).blk t).view.emb (ix2 p q) = (ix2 (⟨t.val * 10000 + p.val, hPlt⟩ : Fin 100000) q : S100000x32.Idx) := by
    funext a
    refine Fin.ext ?_
    match a with
    | ⟨0, _⟩ => show win1_2.index t (0 : Fin 2) * 10000 + 1 * p.val = t.val * 10000 + p.val; rw [e4]; omega
    | ⟨1, _⟩ => show win1_2.index t (1 : Fin 2) * 32 + 1 * q.val = q.val; rw [e5]; omega
  show _ = product V D c (((cfg1.win 2).blk t).view.emb (ix2 p q))
  rw [hemb]
  refine Eq.trans ?_ (Ideal.dotGeneral_rows_cols D hlb hln hlc hrb hrn hrc none .single _ _ ⟨t.val * 10000 + p.val, hPlt⟩ q).symm
  refine Finset.sum_congr rfl fun j _ => ?_
  rw [left_block_entry V c t p j ⟨t.val * 10000 + p.val, hPlt⟩ rfl, right_block_entry V c t j q]

/-- Every entry of the result array lies in the band of the point its row falls in. -/
theorem bands_cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  let t : Fin cfg1.N := ⟨(i 0).val / 10000, by rw [hN]; omega⟩
  obtain ⟨-, -, -, -, e4, e5, -⟩ := block_positions t
  have e4' : win1_2.index t (0 : Fin 2) = (i 0).val / 10000 := e4
  refine ⟨t, flush1_2 t, ?_⟩
  show i ∈ ((View.whole (Pipeline.arrRef spec1 2)).slice (win1_2.rect t)).set
  rw [View.set_slice_whole, Rect.mem_set_unit]
  intro a
  match a with
  | ⟨0, _⟩ => show win1_2.index t (0 : Fin 2) * 10000 ≤ (i 0).val ∧ (i 0).val < win1_2.index t (0 : Fin 2) * 10000 + 10000; rw [e4']; omega
  | ⟨1, _⟩ => show win1_2.index t (1 : Fin 2) * 32 ≤ (i 1).val ∧ (i 1).val < win1_2.index t (1 : Fin 2) * 32 + 32; rw [e5]; omega

include hlb hln hlc hrb hrn hrc in
/-- So the result array, after the ten points, holds the whole product. -/
theorem result_array (c : Dev nD) : (dat1 V c).arrAt 2 cfg1.N = product V D c :=
  (dat1 V c).arrAt_eq_of_cover 2 (product V D c) (fun t _ => written_back V D hlb hln hlc hrb hrn hrc c t) (bands_cover)

end Cert.KernelIdeal.SecondProduct

end
-- ==== Proof.LastProduct.lean ====
/-
  The last matrix product, h · Wlin ([100000, 32] × [32, 1]), as the kernel computes it: ten grid points, each taking a band of
  10000 rows of h and the whole of Wlin and writing back the same band of rows of the one-column product. Read entry by entry, each
  band is the matching band of the ONE whole product the host's contraction of the two arrays states, and the ten bands tile the
  result; so the result array ends holding that whole product. Stated for any contents of the buffers at the region's entry, and
  for any dimension-number record with the lists of a rows-times-columns contraction.
-/
import proofs.«173061_j14791867368180_1_alg».proof.Proof.Gen.KernelIdeal.Frame
import proofs.«173061_j14791867368180_1_alg».proof.Proof.LibDotGeneralEntry
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)
open Idealize.ShloMosaic.ValueIdx
open scoped BigOperators

namespace Cert.KernelIdeal.LastProduct

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- One entry of what the body stores: row `p` of the left block times column `q` of the right block, a plain sum over
    the 32 shared positions (the change of float format on the way in is the identity on the extended reals, and the
    accumulator starts at zero). -/
theorem stored_entry (x0 : Vec Ideal S10000x32 .f32) (x1 : Vec Ideal S32x1 .f32) (p : Fin 10000) (q : Fin 1) :
    k2_pay1 (F := Ideal) x0 x1 (ix2 p q) = ∑ j : Fin 32, x0 (ix2 p j) * x1 (ix2 j q) := by
  unfold k2_pay1
  rw [shapeCast_self]
  exact Ideal.matmul_rows_cols dot_S10000x32_S32x1_S10000x1_1_0_0_1_n_n rfl rfl rfl rfl rfl rfl none _ _ p q

/-- Where the three windows sit at grid point `t`: the left operand's and the result's block is the `t`-th band of 10000
    rows, the right operand's block is the whole matrix. Decided over the ten points. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- The left operand's block at point `t`, at row `p` and position `j`, is the array's row `10000 t + p`. -/
theorem left_block_entry (c : Dev nD) (t : Fin cfg2.N) (p : Fin 10000) (j : Fin 32) (P : Fin 100000)
    (hP : P.val = t.val * 10000 + p.val) :
    (iblk2 V c 0 t : Vec Ideal S10000x32 .f32) (ix2 p j) = (V c (Pipeline.arrRef spec2 0) : S100000x32.Idx → EReal) (ix2 P j) := by
  obtain ⟨e0, e1, -, -, -, -, -⟩ := block_positions t
  unfold iblk2
  show V c (Pipeline.arrRef spec2 0) (((cfg2.win 0).blk t).view.emb (ix2 p j)) = _
  refine congrArg _ (funext fun a => Fin.ext ?_)
  match a with
  | ⟨0, _⟩ => show win2_0.index t (0 : Fin 2) * 10000 + 1 * p.val = P.val; rw [e0, hP]; omega
  | ⟨1, _⟩ => show win2_0.index t (1 : Fin 2) * 32 + 1 * j.val = j.val; rw [e1]; omega

/-- The right operand's block at any point is the whole matrix. -/
theorem right_block_entry (c : Dev nD) (t : Fin cfg2.N) (j : Fin 32) (q : Fin 1) :
    (iblk2 V c 1 t : Vec Ideal S32x1 .f32) (ix2 j q) = (V c (Pipeline.arrRef spec2 1) : S32x1.Idx → EReal) (ix2 j q) := by
  obtain ⟨-, -, e2, e3, -, -, -⟩ := block_positions t
  unfold iblk2
  show V c (Pipeline.arrRef spec2 1) (((cfg2.win 1).blk t).view.emb (ix2 j q)) = _
  refine congrArg _ (funext fun a => Fin.ext ?_)
  match a with
  | ⟨0, _⟩ => show win2_1.index t (0 : Fin 2) * 32 + 1 * j.val = j.val; rw [e2]; omega
  | ⟨1, _⟩ => show win2_1.index t (1 : Fin 2) * 1 + 1 * q.val = q.val; rw [e3]; omega

variable (D : DotDims S100000x32 S32x1 S100000x1)
  (hlb : D.lhsBatch = []) (hln : D.lhsNonContracting = [0]) (hlc : D.lhsContracting = [1])
  (hrb : D.rhsBatch = []) (hrn : D.rhsNonContracting = [1]) (hrc : D.rhsContracting = [0])

/-- The whole product of the two arrays as the region finds them, as the host's contraction states it. -/
abbrev product (c : Dev nD) : S100000x1.Idx → EReal :=
  Host.dotGeneral (F := Ideal) (φ₁ := .f32) (φ₂ := .f32) D none (V c (Pipeline.arrRef spec2 0)) (V c (Pipeline.arrRef spec2 1))

include hlb hln hlc hrb hrn hrc in
/-- What point `t` writes back is the `t`-th band of rows of the whole product. -/
theorem written_back (c : Dev nD) (t : Fin cfg2.N) :
    (dat2 V c).flushed 2 t = ((cfg2.win 2).blk t).view.read (Elt Ideal) (product V D c) := by
  obtain ⟨-, -, -, -, e4, e5, ht⟩ := block_positions t
  show (cfg2.win 2).cut (grid2.coords t) ((dat2 V c).after 2 t) = _
  rw [after2_2]
  unfold out2_2
  rw [View.canon_unit_zero zero_offsets]
  simp only [View.ld_unit_zero (S := S10000x32) zero_offsets, View.ld_unit_zero (S := S32x1) zero_offsets]
  funext y
  obtain ⟨p, q, rfl⟩ : ∃ (p : Fin 10000) (q : Fin 1), y = ix2 p q := ⟨y 0, y 1, eq_ix2 y⟩
  refine (stored_entry _ _ p q).trans ?_
  have hPlt : t.val * 10000 + p.val < 100000 := by have := p.isLt; omega
  have hemb : ((cfg2.win 2).blk t).view.emb (ix2 p q) = (ix2 (⟨t.val * 10000 + p.val, hPlt⟩ : Fin 100000) q : S100000x1.Idx) := by
    funext a
    refine Fin.ext ?_
    match a with
    | ⟨0, _⟩ => show win2_2.index t (0 : Fin 2) * 10000 + 1 * p.val = t.val * 10000 + p.val; rw [e4]; omega
    | ⟨1, _⟩ => show win2_2.index t (1 : Fin 2) * 1 + 1 * q.val = q.val; rw [e5]; omega
  show _ = product V D c (((cfg2.win 2).blk t).view.emb (ix2 p q))
  rw [hemb]
  refine Eq.trans ?_ (Ideal.dotGeneral_rows_cols D hlb hln hlc hrb hrn hrc none .single _ _ ⟨t.val * 10000 + p.val, hPlt⟩ q).symm
  refine Finset.sum_congr rfl fun j _ => ?_
  rw [left_block_entry V c t p j ⟨t.val * 10000 + p.val, hPlt⟩ rfl, right_block_entry V c t j q]

/-- Every entry of the result array lies in the band of the point its row falls in. -/
theorem bands_cover (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 10 := N_2
  let t : Fin cfg2.N := ⟨(i 0).val / 10000, by rw [hN]; omega⟩
  obtain ⟨-, -, -, -, e4, e5, -⟩ := block_positions t
  have e4' : win2_2.index t (0 : Fin 2) = (i 0).val / 10000 := e4
  refine ⟨t, flush2_2 t, ?_⟩
  show i ∈ ((View.whole (Pipeline.arrRef spec2 2)).slice (win2_2.rect t)).set
  rw [View.set_slice_whole, Rect.mem_set_unit]
  intro a
  match a with
  | ⟨0, _⟩ => show win2_2.index t (0 : Fin 2) * 10000 ≤ (i 0).val ∧ (i 0).val < win2_2.index t (0 : Fin 2) * 10000 + 10000; rw [e4']; omega
  | ⟨1, _⟩ => show win2_2.index t (1 : Fin 2) * 1 ≤ (i 1).val ∧ (i 1).val < win2_2.index t (1 : Fin 2) * 1 + 1; rw [e5]; omega

include hlb hln hlc hrb hrn hrc in
/-- So the result array, after the ten points, holds the whole product. -/
theorem result_array (c : Dev nD) : (dat2 V c).arrAt 2 cfg2.N = product V D c :=
  (dat2 V c).arrAt_eq_of_cover 2 (product V D c) (fun t _ => written_back V D hlb hln hlc hrb hrn hrc c t) (bands_cover)

end Cert.KernelIdeal.LastProduct

end
-- ==== Proof.Layer.lean ====
/-
  The graph-convolution layer both programs share, as ONE function of its inputs on the extended reals, and the readout.

  The graph has 100000 nodes and 1600000 edges (row 0 of the edge list holds sources, row 1 targets); every node gets a
  self loop, so there are 1700000 (source, target) pairs. With deg(v) the number of pairs whose target is v and
  dinv(v) = deg(v)^(-1/2) where deg(v) > 0 (0 otherwise), a layer sends the transformed features xw (one row of 32 per node) to

      relu( Σ over pairs (s, t) with t = v of  xw[s] · dinv(s) · dinv(t)   +   b )        for every node v,

  the sum being the host's scatter-add into a zero matrix of the gathered, scaled rows. Index arithmetic follows the host
  program: a negative gather index is shifted up by the node count before use. The readout adds the last bias to the
  one-column product and drops the unit axis.

  The two programs differ only in how xw is produced (a tiled kernel against one whole contraction); everything here
  is applied to it unchanged, so it is kept as one function and never opened.
-/
import proofs.«173061_j14791867368180_1_alg».proof.Proof.Gen.KernelIdeal
import Idealize.ShloMosaic.PureOps.Ideal

noncomputable section

open Idealize.ShloMosaic

namespace Cert.KernelIdeal.Gcn

open Cert.KernelIdeal Cert.KernelIdeal.Gen

/-- An edge-list row of 1600000 entries followed by 100000 more entries: one list of 1700000. -/
def joined (a : (⟨S1600000, .i32⟩ : BufTy).Contents (Elt Ideal)) (b : (⟨S100000, .i32⟩ : BufTy).Contents (Elt Ideal)) :
    (⟨S1700000, .i32⟩ : BufTy).Contents (Elt Ideal) :=
  concatenate S1700000 0 [⟨S1600000, a⟩, ⟨S100000, b⟩] concatenates_S1600000_S100000_S1700000_d0

/-- Row 0 of the edge list (the sources) followed by the self loops `0 … 99999`. -/
def sources (ei : (⟨S2x1600000, .i32⟩ : BufTy).Contents (Elt Ideal)) : (⟨S1700000, .i32⟩ : BufTy).Contents (Elt Ideal) :=
  joined (shapeCast S1600000 (extractStridedSlice S1x1600000 ![0, 0] ei slices_S2x1600000_S1x1600000_0_0) shapeCasts_S1x1600000_S1600000)
    (iotaInDim S100000 32 0)

/-- Row 1 of the edge list (the targets) followed by the self loops. -/
def targets (ei : (⟨S2x1600000, .i32⟩ : BufTy).Contents (Elt Ideal)) : (⟨S1700000, .i32⟩ : BufTy).Contents (Elt Ideal) :=
  joined (shapeCast S1600000 (extractStridedSlice S1x1600000 ![1, 0] ei slices_S2x1600000_S1x1600000_1_0) shapeCasts_S1x1600000_S1600000)
    (iotaInDim S100000 32 0)

/-- A gather index as the host uses it: a negative one is shifted up by the node count. -/
def shifted (idx : (⟨S1700000, .i32⟩ : BufTy).Contents (Elt Ideal)) : (⟨S1700000, .i32⟩ : BufTy).Contents (Elt Ideal) :=
  select (cmpi .slt idx (broadcastInDim S1700000 ![] bcast_S_S1700000 (constantI S_ 32 0#32)))
    (addi idx (broadcastInDim S1700000 ![] bcast_S_S1700000 (constantI S_ 32 100000#32))) idx

/-- An index list as the one-column index matrix a gather or a scatter takes. -/
def asColumn (idx : (⟨S1700000, .i32⟩ : BufTy).Contents (Elt Ideal)) : (⟨S1700000x1, .i32⟩ : BufTy).Contents (Elt Ideal) :=
  broadcastInDim S1700000x1 ![0] bcast_S1700000_S1700000x1_0 idx

/-- deg(v): a one scattered onto its target for every pair. -/
def degree (ei : (⟨S2x1600000, .i32⟩ : BufTy).Contents (Elt Ideal)) : FVec Ideal S100000 .f32 :=
  Host.scatterAdd scatter_S100000_S1700000x1_S1700000_n_0_0_1
    (broadcastInDim S100000 ![] bcast_S_S100000 (constant (F := Ideal) S_ .f32 0x00000000#32))
    (asColumn (targets ei))
    (broadcastInDim S1700000 ![] bcast_S_S1700000 (constant (F := Ideal) S_ .f32 0x3F800000#32))

/-- dinv(v) = deg(v)^(-1/2) where deg(v) > 0, and 0 elsewhere. -/
def invSqrt (deg : FVec Ideal S100000 .f32) : FVec Ideal S100000 .f32 :=
  select (cmpf (F := Ideal) .ogt deg (broadcastInDim S100000 ![] bcast_S_S100000 (constant (F := Ideal) S_ .f32 0x00000000#32)))
    (Host.rsqrt deg)
    (broadcastInDim S100000 ![] bcast_S_S100000 (constant (F := Ideal) S_ .f32 0x00000000#32))

/-- dinv(s) · dinv(t), one factor per (source, target) pair. -/
def pairWeight (dinv : FVec Ideal S100000 .f32) (src dst : (⟨S1700000, .i32⟩ : BufTy).Contents (Elt Ideal)) : FVec Ideal S1700000 .f32 :=
  mulf (Host.gather gather_S100000_S1700000x1_S1700000_n_0_n_n_0_1_1 dinv (asColumn (shifted src)))
    (Host.gather gather_S100000_S1700000x1_S1700000_n_0_n_n_0_1_1 dinv (asColumn (shifted dst)))

/-- The weighted rows of the sources, summed at their targets. -/
def aggregate (xw : FVec Ideal S100000x32 .f32) (dinv : FVec Ideal S100000 .f32)
    (src dst : (⟨S1700000, .i32⟩ : BufTy).Contents (Elt Ideal)) : FVec Ideal S100000x32 .f32 :=
  Host.scatterAdd scatter_S100000x32_S1700000x1_S1700000x32_1_0_0_1
    (broadcastInDim S100000x32 ![] bcast_S_S100000x32 (constant (F := Ideal) S_ .f32 0x00000000#32))
    (asColumn dst)
    (mulf (Host.gather gather_S100000x32_S1700000x1_S1700000x32_1_0_n_n_0_1_132 xw (asColumn (shifted src)))
      (broadcastInDim S1700000x32 ![0, 1] bcast_S1700000x1_S1700000x32_0_1
        (broadcastInDim S1700000x1 ![0] bcast_S1700000_S1700000x1_0 (pairWeight dinv src dst))))

/-- Aggregate, add the bias to every row, clamp below at zero — over given pair lists and inverse square roots. -/
def layerOver (xw : FVec Ideal S100000x32 .f32) (dinv : FVec Ideal S100000 .f32)
    (src dst : (⟨S1700000, .i32⟩ : BufTy).Contents (Elt Ideal)) (b : FVec Ideal S32 .f32) : FVec Ideal S100000x32 .f32 :=
  maximumf
    (addf (aggregate xw dinv src dst)
      (broadcastInDim S100000x32 ![0, 1] bcast_S1x32_S100000x32_0_1 (broadcastInDim S1x32 ![1] bcast_S32_S1x32_1 b)))
    (broadcastInDim S100000x32 ![] bcast_S_S100000x32 (constant (F := Ideal) S_ .f32 0x00000000#32))

/-- One layer, from the edge list. -/
def layer (xw : FVec Ideal S100000x32 .f32) (ei : (⟨S2x1600000, .i32⟩ : BufTy).Contents (Elt Ideal)) (b : FVec Ideal S32 .f32) :
    FVec Ideal S100000x32 .f32 :=
  layerOver xw (invSqrt (degree ei)) (sources ei) (targets ei) b

/-- The readout: the last bias added to the one-column product, the unit axis dropped. -/
def readout (y : FVec Ideal S100000x1 .f32) (b : FVec Ideal S1 .f32) : FVec Ideal S100000 .f32 :=
  shapeCast S100000
    (addf y (broadcastInDim S100000x1 ![0, 1] bcast_S1x1_S100000x1_0_1 (broadcastInDim S1x1 ![1] bcast_S1_S1x1_1 b)))
    shapeCasts_S100000x1_S100000

end Cert.KernelIdeal.Gcn

end
-- ==== Proof.Chain.lean ====
/-
  The kernel program's result buffer as ONE term of the argument arrays: the fold through @main read back.

  @main is: the first tiled product (x · W1) — a host stretch (the graph-convolution layer with bias b1) — the second
  tiled product (· W2) — the same host stretch again (bias b2) — the last tiled product (· Wlin) — the readout (bias
  blin). Each tiled product leaves the whole product of the two arrays it finds (the three product modules); each host
  stretch, read back operation by operation, is as written the shared layer function applied to the product before it;
  no stretch and no region writes an argument array, so each is found as launched. Composing the six steps gives the
  result as readout(layer(layer(x·W1)·W2)·Wlin).
-/
import proofs.«173061_j14791867368180_1_alg».proof.Proof.Gen.KernelIdeal.Frame
import proofs.«173061_j14791867368180_1_alg».proof.Proof.FirstProduct
import proofs.«173061_j14791867368180_1_alg».proof.Proof.SecondProduct
import proofs.«173061_j14791867368180_1_alg».proof.Proof.LastProduct
import proofs.«173061_j14791867368180_1_alg».proof.Proof.Layer
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.KernelIdeal.Gcn

/-- The dimension numbers of a rows-times-columns contraction: no batch axis, the left operand's axis 1 against the right
    operand's axis 0. -/
def RowsTimesCols {M K N : Nat} (D : DotDims ⟨2, ![M, K]⟩ ⟨2, ![K, N]⟩ ⟨2, ![M, N]⟩) : Prop :=
  D.lhsBatch = [] ∧ D.lhsNonContracting = [0] ∧ D.lhsContracting = [1]
    ∧ D.rhsBatch = [] ∧ D.rhsNonContracting = [1] ∧ D.rhsContracting = [0]

/-! ## Reading a host stretch back

An operation's result buffer holds its function of its operands' contents, every other buffer what it held. The one
operation whose function hides its operands inside a list (the join of an edge-list row with the self loops) is read
with the join named, so that its operands stay in reach of the next step. -/

theorem joined_v4 (W : Valuation τ sig (Elt Ideal)) :
    (StableHlo.binary main_v3 main_v1 main_v4 ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal))).result W (no_index (Proc.devRef .tc main_v4))
      = joined (W (Proc.devRef .tc main_v3)) (W (Proc.devRef .tc main_v1)) :=
  StableHlo.binary_result _ _ _ _ _ _ _ W
theorem joined_v7 (W : Valuation τ sig (Elt Ideal)) :
    (StableHlo.binary main_v6 main_v1 main_v7 ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal))).result W (no_index (Proc.devRef .tc main_v7))
      = joined (W (Proc.devRef .tc main_v6)) (W (Proc.devRef .tc main_v1)) :=
  StableHlo.binary_result _ _ _ _ _ _ _ W
theorem joined_v52 (W : Valuation τ sig (Elt Ideal)) :
    (StableHlo.binary main_v51 main_v49 main_v52 ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal))).result W (no_index (Proc.devRef .tc main_v52))
      = joined (W (Proc.devRef .tc main_v51)) (W (Proc.devRef .tc main_v49)) :=
  StableHlo.binary_result _ _ _ _ _ _ _ W
theorem joined_v55 (W : Valuation τ sig (Elt Ideal)) :
    (StableHlo.binary main_v54 main_v49 main_v55 ((fun a b => concatenate S1700000 0 [⟨S1600000, a⟩, ⟨S100000, b⟩] concatenates_S1600000_S100000_S1700000_d0) : (⟨S1600000, .i32⟩ : BufTy).Contents (Elt Ideal) → (⟨S100000, .i32⟩ : BufTy).Contents (Elt Ideal) → (⟨S1700000, .i32⟩ : BufTy).Contents (Elt Ideal))).result W (no_index (Proc.devRef .tc main_v55))
      = joined (W (Proc.devRef .tc main_v54)) (W (Proc.devRef .tc main_v49)) :=
  StableHlo.binary_result _ _ _ _ _ _ _ W

/-- One pass over a stretch: each operation read at its own result buffer, skipped at any other. -/
macro "read_back" : tactic =>
  `(tactic| (simp (disch := decide) only [after_cons, after_nil,
      ↓joined_v4, ↓joined_v7, ↓joined_v52, ↓joined_v55,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

/-! ## The host stretches, from any contents -/

/-- The four pieces of host operations between the first and the second product, run in order. -/
def stretchA (W : Valuation τ sig (Elt Ideal)) : Valuation τ sig (Elt Ideal) :=
  StableHlo.after hostOps1_3 (StableHlo.after hostOps1_2 (StableHlo.after hostOps1_1 (StableHlo.after hostOps1 W)))

/-- The four pieces between the second and the last product. -/
def stretchB (W : Valuation τ sig (Elt Ideal)) : Valuation τ sig (Elt Ideal) :=
  StableHlo.after hostOps2_3 (StableHlo.after hostOps2_2 (StableHlo.after hostOps2_1 (StableHlo.after hostOps2 W)))

/-! Each stretch is read in its four pieces, every piece from ANY contents: what a piece leaves in a buffer is a function of
single buffers of the contents it starts from, and the stretch is the composition of the four. -/

/-! ### The first stretch, piece by piece, each from ANY contents -/

/-- Piece 1 builds the pair lists from the edge list … -/
theorem pieceA1_sources (W : Valuation τ sig (Elt Ideal)) : StableHlo.after hostOps1 W (Proc.devRef .tc main_v4) = sources (W (Proc.devRef .tc main_arg1)) := by
  read_back; rfl
theorem pieceA1_targets (W : Valuation τ sig (Elt Ideal)) : StableHlo.after hostOps1 W (Proc.devRef .tc main_v7) = targets (W (Proc.devRef .tc main_arg1)) := by
  read_back; rfl
/-- … counts the degrees … -/
theorem pieceA1_degree (W : Valuation τ sig (Elt Ideal)) : StableHlo.after hostOps1 W (Proc.devRef .tc main_v11) = degree (W (Proc.devRef .tc main_arg1)) := by
  read_back; rfl
/-- … tests them against zero, takes their inverse square roots, and sets a zero aside. -/
theorem pieceA1_positive (W : Valuation τ sig (Elt Ideal)) :
    StableHlo.after hostOps1 W (Proc.devRef .tc main_v13) = cmpf (F := Ideal) .ogt (StableHlo.after hostOps1 W (Proc.devRef .tc main_v11)) (broadcastInDim S100000 ![] bcast_S_S100000 (constant (F := Ideal) S_ .f32 0x00000000#32)) := by
  read_back; try rfl
theorem pieceA1_rsqrt (W : Valuation τ sig (Elt Ideal)) :
    StableHlo.after hostOps1 W (Proc.devRef .tc main_v14) = (Host.rsqrt (StableHlo.after hostOps1 W (Proc.devRef .tc main_v11) : FVec Ideal S100000 .f32) : FVec Ideal S100000 .f32) := by
  read_back; try rfl
theorem pieceA1_zero (W : Valuation τ sig (Elt Ideal)) :
    StableHlo.after hostOps1 W (Proc.devRef .tc main_cst_2) = constant (F := Ideal) S_ .f32 0x00000000#32 := by
  read_back; try rfl
theorem pieceA1_keeps_v0 (W : Valuation τ sig (Elt Ideal)) : StableHlo.after hostOps1 W (Proc.devRef .tc main_v0) = W (Proc.devRef .tc main_v0) := by
  read_back
theorem pieceA1_keeps_arg3 (W : Valuation τ sig (Elt Ideal)) : StableHlo.after hostOps1 W (Proc.devRef .tc main_arg3) = W (Proc.devRef .tc main_arg3) := by
  read_back

/-- Piece 2 selects the inverse square root where the degree is positive and the zero elsewhere. -/
theorem pieceA2_select (W : Valuation τ sig (Elt Ideal)) :
    StableHlo.after hostOps1_1 W (Proc.devRef .tc main_v15)
      = select (W (Proc.devRef .tc main_v13)) (W (Proc.devRef .tc main_v14)) (broadcastInDim S100000 ![] bcast_S_S100000 (W (Proc.devRef .tc main_cst_2))) := by
  read_back; rfl
theorem pieceA2_keeps_v0 (W : Valuation τ sig (Elt Ideal)) : StableHlo.after hostOps1_1 W (Proc.devRef .tc main_v0) = W (Proc.devRef .tc main_v0) := by
  read_back
theorem pieceA2_keeps_v4 (W : Valuation τ sig (Elt Ideal)) : StableHlo.after hostOps1_1 W (Proc.devRef .tc main_v4) = W (Proc.devRef .tc main_v4) := by
  read_back
theorem pieceA2_keeps_v7 (W : Valuation τ sig (Elt Ideal)) : StableHlo.after hostOps1_1 W (Proc.devRef .tc main_v7) = W (Proc.devRef .tc main_v7) := by
  read_back
theorem pieceA2_keeps_arg3 (W : Valuation τ sig (Elt Ideal)) : StableHlo.after hostOps1_1 W (Proc.devRef .tc main_arg3) = W (Proc.devRef .tc main_arg3) := by
  read_back

/-- Piece 3 gathers, scales, sums at the targets and adds the bias. -/
theorem pieceA3_sum (W : Valuation τ sig (Elt Ideal)) :
    StableHlo.after hostOps1_2 W (Proc.devRef .tc main_v46)
      = addf (aggregate (W (Proc.devRef .tc main_v0)) (W (Proc.devRef .tc main_v15)) (W (Proc.devRef .tc main_v4)) (W (Proc.devRef .tc main_v7)))
          (broadcastInDim S100000x32 ![0, 1] bcast_S1x32_S100000x32_0_1 (broadcastInDim S1x32 ![1] bcast_S32_S1x32_1 (W (Proc.devRef .tc main_arg3)))) := by
  unfold aggregate pairWeight asColumn shifted
  read_back; try rfl

/-- Piece 4 clamps below at zero. -/
theorem pieceA4_clamp (W : Valuation τ sig (Elt Ideal)) :
    StableHlo.after hostOps1_3 W (Proc.devRef .tc main_v47) = maximumf (W (Proc.devRef .tc main_v46)) (broadcastInDim S100000x32 ![] bcast_S_S100000x32 (constant (F := Ideal) S_ .f32 0x00000000#32)) := by
  read_back; rfl

/-- The first stretch leaves, in the second product's left operand, the layer of the first product with bias b1. -/
theorem stretchA_result (W : Valuation τ sig (Elt Ideal)) :
    stretchA W (Proc.devRef .tc main_v47) = layer (W (Proc.devRef .tc main_v0)) (W (Proc.devRef .tc main_arg1)) (W (Proc.devRef .tc main_arg3)) := by
  unfold stretchA
  rw [pieceA4_clamp, pieceA3_sum, pieceA2_select, pieceA2_keeps_v0, pieceA2_keeps_v4, pieceA2_keeps_v7, pieceA2_keeps_arg3,
    pieceA1_positive, pieceA1_rsqrt, pieceA1_zero, pieceA1_degree, pieceA1_sources, pieceA1_targets,
    pieceA1_keeps_v0, pieceA1_keeps_arg3]
  rfl

/-! ### The second stretch, piece by piece, each from ANY contents -/

/-- Piece 1 builds the pair lists from the edge list … -/
theorem pieceB1_sources (W : Valuation τ sig (Elt Ideal)) : StableHlo.after hostOps2 W (Proc.devRef .tc main_v52) = sources (W (Proc.devRef .tc main_arg1)) := by
  read_back; rfl
theorem pieceB1_targets (W : Valuation τ sig (Elt Ideal)) : StableHlo.after hostOps2 W (Proc.devRef .tc main_v55) = targets (W (Proc.devRef .tc main_arg1)) := by
  read_back; rfl
/-- … counts the degrees … -/
theorem pieceB1_degree (W : Valuation τ sig (Elt Ideal)) : StableHlo.after hostOps2 W (Proc.devRef .tc main_v59) = degree (W (Proc.devRef .tc main_arg1)) := by
  read_back; rfl
/-- … tests them against zero, takes their inverse square roots, and sets a zero aside. -/
theorem pieceB1_positive (W : Valuation τ sig (Elt Ideal)) :
    StableHlo.after hostOps2 W (Proc.devRef .tc main_v61) = cmpf (F := Ideal) .ogt (StableHlo.after hostOps2 W (Proc.devRef .tc main_v59)) (broadcastInDim S100000 ![] bcast_S_S100000 (constant (F := Ideal) S_ .f32 0x00000000#32)) := by
  read_back; try rfl
theorem pieceB1_rsqrt (W : Valuation τ sig (Elt Ideal)) :
    StableHlo.after hostOps2 W (Proc.devRef .tc main_v62) = (Host.rsqrt (StableHlo.after hostOps2 W (Proc.devRef .tc main_v59) : FVec Ideal S100000 .f32) : FVec Ideal S100000 .f32) := by
  read_back; try rfl
theorem pieceB1_zero (W : Valuation τ sig (Elt Ideal)) :
    StableHlo.after hostOps2 W (Proc.devRef .tc main_cst_12) = constant (F := Ideal) S_ .f32 0x00000000#32 := by
  read_back; try rfl
theorem pieceB1_keeps_v48 (W : Valuation τ sig (Elt Ideal)) : StableHlo.after hostOps2 W (Proc.devRef .tc main_v48) = W (Proc.devRef .tc main_v48) := by
  read_back
theorem pieceB1_keeps_arg5 (W : Valuation τ sig (Elt Ideal)) : StableHlo.after hostOps2 W (Proc.devRef .tc main_arg5) = W (Proc.devRef .tc main_arg5) := by
  read_back

/-- Piece 2 selects the inverse square root where the degree is positive and the zero elsewhere. -/
theorem pieceB2_select (W : Valuation τ sig (Elt Ideal)) :
    StableHlo.after hostOps2_1 W (Proc.devRef .tc main_v63)
      = select (W (Proc.devRef .tc main_v61)) (W (Proc.devRef .tc main_v62)) (broadcastInDim S100000 ![] bcast_S_S100000 (W (Proc.devRef .tc main_cst_12))) := by
  read_back; rfl
theorem pieceB2_keeps_v48 (W : Valuation τ sig (Elt Ideal)) : StableHlo.after hostOps2_1 W (Proc.devRef .tc main_v48) = W (Proc.devRef .tc main_v48) := by
  read_back
theorem pieceB2_keeps_v52 (W : Valuation τ sig (Elt Ideal)) : StableHlo.after hostOps2_1 W (Proc.devRef .tc main_v52) = W (Proc.devRef .tc main_v52) := by
  read_back
theorem pieceB2_keeps_v55 (W : Valuation τ sig (Elt Ideal)) : StableHlo.after hostOps2_1 W (Proc.devRef .tc main_v55) = W (Proc.devRef .tc main_v55) := by
  read_back
theorem pieceB2_keeps_arg5 (W : Valuation τ sig (Elt Ideal)) : StableHlo.after hostOps2_1 W (Proc.devRef .tc main_arg5) = W (Proc.devRef .tc main_arg5) := by
  read_back

/-- Piece 3 gathers, scales, sums at the targets and adds the bias. -/
theorem pieceB3_sum (W : Valuation τ sig (Elt Ideal)) :
    StableHlo.after hostOps2_2 W (Proc.devRef .tc main_v94)
      = addf (aggregate (W (Proc.devRef .tc main_v48)) (W (Proc.devRef .tc main_v63)) (W (Proc.devRef .tc main_v52)) (W (Proc.devRef .tc main_v55)))
          (broadcastInDim S100000x32 ![0, 1] bcast_S1x32_S100000x32_0_1 (broadcastInDim S1x32 ![1] bcast_S32_S1x32_1 (W (Proc.devRef .tc main_arg5)))) := by
  unfold aggregate pairWeight asColumn shifted
  read_back; try rfl

/-- Piece 4 clamps below at zero. -/
theorem pieceB4_clamp (W : Valuation τ sig (Elt Ideal)) :
    StableHlo.after hostOps2_3 W (Proc.devRef .tc main_v95) = maximumf (W (Proc.devRef .tc main_v94)) (broadcastInDim S100000x32 ![] bcast_S_S100000x32 (constant (F := Ideal) S_ .f32 0x00000000#32)) := by
  read_back; rfl

/-- The second stretch leaves, in the last product's left operand, the layer of the second product with bias b2. -/
theorem stretchB_result (W : Valuation τ sig (Elt Ideal)) :
    stretchB W (Proc.devRef .tc main_v95) = layer (W (Proc.devRef .tc main_v48)) (W (Proc.devRef .tc main_arg1)) (W (Proc.devRef .tc main_arg5)) := by
  unfold stretchB
  rw [pieceB4_clamp, pieceB3_sum, pieceB2_select, pieceB2_keeps_v48, pieceB2_keeps_v52, pieceB2_keeps_v55, pieceB2_keeps_arg5,
    pieceB1_positive, pieceB1_rsqrt, pieceB1_zero, pieceB1_degree, pieceB1_sources, pieceB1_targets,
    pieceB1_keeps_v48, pieceB1_keeps_arg5]
  rfl

/-- The last four host operations are the readout of the last product with bias blin. -/
theorem tail_result (W : Valuation τ sig (Elt Ideal)) :
    StableHlo.after hostOps3 W (Proc.devRef .tc main_v100)
      = readout (W (Proc.devRef .tc main_v96)) (W (Proc.devRef .tc main_arg7)) := by
  after_results_simp
  unfold readout
  rfl

/-! The stretches write no argument array. -/

theorem stretchA_keeps_arg1 (W : Valuation τ sig (Elt Ideal)) : stretchA W (Proc.devRef .tc main_arg1) = W (Proc.devRef .tc main_arg1) := by
  unfold stretchA; after_results_simp
theorem stretchA_keeps_arg4 (W : Valuation τ sig (Elt Ideal)) : stretchA W (Proc.devRef .tc main_arg4) = W (Proc.devRef .tc main_arg4) := by
  unfold stretchA; after_results_simp
theorem stretchA_keeps_arg5 (W : Valuation τ sig (Elt Ideal)) : stretchA W (Proc.devRef .tc main_arg5) = W (Proc.devRef .tc main_arg5) := by
  unfold stretchA; after_results_simp
theorem stretchA_keeps_arg6 (W : Valuation τ sig (Elt Ideal)) : stretchA W (Proc.devRef .tc main_arg6) = W (Proc.devRef .tc main_arg6) := by
  unfold stretchA; after_results_simp
theorem stretchA_keeps_arg7 (W : Valuation τ sig (Elt Ideal)) : stretchA W (Proc.devRef .tc main_arg7) = W (Proc.devRef .tc main_arg7) := by
  unfold stretchA; after_results_simp
theorem stretchB_keeps_arg6 (W : Valuation τ sig (Elt Ideal)) : stretchB W (Proc.devRef .tc main_arg6) = W (Proc.devRef .tc main_arg6) := by
  unfold stretchB; after_results_simp
theorem stretchB_keeps_arg7 (W : Valuation τ sig (Elt Ideal)) : stretchB W (Proc.devRef .tc main_arg7) = W (Proc.devRef .tc main_arg7) := by
  unfold stretchB; after_results_simp

/-! ## The fold through @main -/

variable (m : (ℓ : Loc nD τ sig) → Buf (Elt Ideal) ℓ) (ρ : Dev nD → PrngReg)
variable (D1 : DotDims S100000x64 S64x32 S100000x32) (h1 : RowsTimesCols D1)
variable (D2 : DotDims S100000x32 S32x32 S100000x32) (h2 : RowsTimesCols D2)
variable (D3 : DotDims S100000x32 S32x1 S100000x1) (h3 : RowsTimesCols D3)

/-- After the first product a buffer that is none of its three arrays holds its launch contents. -/
theorem first_keeps (c : Dev nD) (b : Ref sig .tc) (hb : ∀ w, Pipeline.arrRef spec0 w ≠ b) :
    W1 m ρ c (Proc.devRef .tc b) = m ((c : Thread nD τ).loc b) :=
  (W1_of_ne m ρ c b hb).trans rfl

include h1 in
/-- After the first product its result array holds x · W1. -/
theorem first_result (c : Dev nD) :
    W1 m ρ c (Proc.devRef .tc main_v0)
      = Host.dotGeneral (F := Ideal) (φ₁ := .f32) (φ₂ := .f32) D1 none (m ((c : Thread nD τ).loc main_arg0)) (m ((c : Thread nD τ).loc main_arg2)) :=
  (W1_arr m ρ c 2).trans (FirstProduct.result_array (V0 m ρ) D1 h1.1 h1.2.1 h1.2.2.1 h1.2.2.2.1 h1.2.2.2.2.1 h1.2.2.2.2.2 c)

/-- The contents at the second product's entry are the first stretch's, from the first product's exit. -/
theorem entry_second (c : Dev nD) : W5 m ρ c = stretchA (W1 m ρ c) := rfl

/-- The contents at the last product's entry are the second stretch's, from the second product's exit. -/
theorem entry_last (c : Dev nD) : W10 m ρ c = stretchB (W6 m ρ c) := rfl

include h2 in
/-- After the second product its result array holds (what the first stretch left) · W2. -/
theorem second_result (c : Dev nD) :
    W6 m ρ c (Proc.devRef .tc main_v48)
      = Host.dotGeneral (F := Ideal) (φ₁ := .f32) (φ₂ := .f32) D2 none (W5 m ρ c (Proc.devRef .tc main_v47)) (W5 m ρ c (Proc.devRef .tc main_arg4)) :=
  (W6_arr m ρ c 2).trans (SecondProduct.result_array (V5 m ρ) D2 h2.1 h2.2.1 h2.2.2.1 h2.2.2.2.1 h2.2.2.2.2.1 h2.2.2.2.2.2 c)

include h3 in
/-- After the last product its result array holds (what the second stretch left) · Wlin. -/
theorem last_result (c : Dev nD) :
    W11 m ρ c (Proc.devRef .tc main_v96)
      = Host.dotGeneral (F := Ideal) (φ₁ := .f32) (φ₂ := .f32) D3 none (W10 m ρ c (Proc.devRef .tc main_v95)) (W10 m ρ c (Proc.devRef .tc main_arg6)) :=
  (W11_arr m ρ c 2).trans (LastProduct.result_array (V10 m ρ) D3 h3.1 h3.2.1 h3.2.2.1 h3.2.2.2.1 h3.2.2.2.2.1 h3.2.2.2.2.2 c)

/-- The whole-array form of the result: three contractions, two layers, the readout. -/
abbrev network (x : FVec Ideal S100000x64 .f32) (ei : (⟨S2x1600000, .i32⟩ : BufTy).Contents (Elt Ideal))
    (w1 : FVec Ideal S64x32 .f32) (b1 : FVec Ideal S32 .f32) (w2 : FVec Ideal S32x32 .f32) (b2 : FVec Ideal S32 .f32)
    (wl : FVec Ideal S32x1 .f32) (bl : FVec Ideal S1 .f32) : FVec Ideal S100000 .f32 :=
  readout
    (Host.dotGeneral (F := Ideal) (φ₁ := .f32) (φ₂ := .f32) D3 none
      (layer
        (Host.dotGeneral (F := Ideal) (φ₁ := .f32) (φ₂ := .f32) D2 none
          (layer (Host.dotGeneral (F := Ideal) (φ₁ := .f32) (φ₂ := .f32) D1 none x w1) ei b1)
          w2)
        ei b2)
      wl)
    bl

include h1 h2 h3 in
/-- THE RESULT BUFFER after the last host stretch, as one term of the argument arrays. -/
theorem result_value (c : Dev nD) :
    W12 m ρ c (Proc.devRef .tc main_v100)
      = network D1 D2 D3 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  -- the argument arrays at each boundary
  have a1 : ∀ b : Ref sig .tc, (∀ w, Pipeline.arrRef spec0 w ≠ b) → W1 m ρ c (Proc.devRef .tc b) = m ((c : Thread nD τ).loc b) :=
    fun b hb => first_keeps m ρ c b hb
  have e5_1 : W5 m ρ c (Proc.devRef .tc main_arg1) = m ((c : Thread nD τ).loc main_arg1) := by
    rw [entry_second, stretchA_keeps_arg1]; exact a1 _ (by decide)
  have e5_4 : W5 m ρ c (Proc.devRef .tc main_arg4) = m ((c : Thread nD τ).loc main_arg4) := by
    rw [entry_second, stretchA_keeps_arg4]; exact a1 _ (by decide)
  have e5_5 : W5 m ρ c (Proc.devRef .tc main_arg5) = m ((c : Thread nD τ).loc main_arg5) := by
    rw [entry_second, stretchA_keeps_arg5]; exact a1 _ (by decide)
  have e5_6 : W5 m ρ c (Proc.devRef .tc main_arg6) = m ((c : Thread nD τ).loc main_arg6) := by
    rw [entry_second, stretchA_keeps_arg6]; exact a1 _ (by decide)
  have e5_7 : W5 m ρ c (Proc.devRef .tc main_arg7) = m ((c : Thread nD τ).loc main_arg7) := by
    rw [entry_second, stretchA_keeps_arg7]; exact a1 _ (by decide)
  have e6_1 : W6 m ρ c (Proc.devRef .tc main_arg1) = m ((c : Thread nD τ).loc main_arg1) :=
    (W6_of_ne m ρ c main_arg1 (by decide)).trans e5_1
  have e6_5 : W6 m ρ c (Proc.devRef .tc main_arg5) = m ((c : Thread nD τ).loc main_arg5) :=
    (W6_of_ne m ρ c main_arg5 (by decide)).trans e5_5
  have e6_6 : W6 m ρ c (Proc.devRef .tc main_arg6) = m ((c : Thread nD τ).loc main_arg6) :=
    (W6_of_ne m ρ c main_arg6 (by decide)).trans e5_6
  have e6_7 : W6 m ρ c (Proc.devRef .tc main_arg7) = m ((c : Thread nD τ).loc main_arg7) :=
    (W6_of_ne m ρ c main_arg7 (by decide)).trans e5_7
  have e10_6 : W10 m ρ c (Proc.devRef .tc main_arg6) = m ((c : Thread nD τ).loc main_arg6) := by
    rw [entry_last, stretchB_keeps_arg6]; exact e6_6
  have e10_7 : W10 m ρ c (Proc.devRef .tc main_arg7) = m ((c : Thread nD τ).loc main_arg7) := by
    rw [entry_last, stretchB_keeps_arg7]; exact e6_7
  have e11_7 : W11 m ρ c (Proc.devRef .tc main_arg7) = m ((c : Thread nD τ).loc main_arg7) :=
    (W11_of_ne m ρ c main_arg7 (by decide)).trans e10_7
  -- the six steps, last first
  have s5 : W5 m ρ c (Proc.devRef .tc main_v47)
      = layer (Host.dotGeneral (F := Ideal) (φ₁ := .f32) (φ₂ := .f32) D1 none (m ((c : Thread nD τ).loc main_arg0)) (m ((c : Thread nD τ).loc main_arg2)))
          (m ((c : Thread nD τ).loc main_arg1)) (m ((c : Thread nD τ).loc main_arg3)) := by
    rw [entry_second, stretchA_result, first_result m ρ D1 h1 c, a1 main_arg1 (by decide), a1 main_arg3 (by decide)]
  have s10 : W10 m ρ c (Proc.devRef .tc main_v95)
      = layer (Host.dotGeneral (F := Ideal) (φ₁ := .f32) (φ₂ := .f32) D2 none (W5 m ρ c (Proc.devRef .tc main_v47)) (m ((c : Thread nD τ).loc main_arg4)))
          (m ((c : Thread nD τ).loc main_arg1)) (m ((c : Thread nD τ).loc main_arg5)) := by
    rw [entry_last, stretchB_result, second_result m ρ D2 h2 c, e5_4, e6_1, e6_5]
  show StableHlo.after hostOps3 (W11 m ρ c) (Proc.devRef .tc main_v100) = _
  rw [tail_result, last_result m ρ D3 h3 c, e11_7, e10_6, s10, s5]

end Cert.KernelIdeal.Chain

end
-- ==== Proof.RefValue.lean ====
/-
  The reference program's result, as its generated run states it, is the shared layer function applied twice around
  three whole matrix products, then the readout: readout(layer(layer(x·W1)·W2)·Wlin). The run's term spells every
  operation out; the layer and the readout are that spelling with names on its parts, so the two sides are one term.
-/
import proofs.«173061_j14791867368180_1_alg».proof.Proof.RefRun
import proofs.«173061_j14791867368180_1_alg».proof.Proof.Layer

set_option maxRecDepth 16384

noncomputable section

open Idealize.ShloMosaic Idealize.ShloMosaic.TcCoe Idealize.SL.Sem

namespace Cert.ReferenceIdeal.RefValue

open Cert.ReferenceIdeal Cert.KernelIdeal.Gcn

/-- The whole-array form of the result: three host contractions, two layers, the readout. -/
abbrev network (x : FVec Ideal S100000x64 .f32) (ei : (⟨S2x1600000, .i32⟩ : BufTy).Contents (Elt Ideal))
    (w1 : FVec Ideal S64x32 .f32) (b1 : FVec Ideal S32 .f32) (w2 : FVec Ideal S32x32 .f32) (b2 : FVec Ideal S32 .f32)
    (wl : FVec Ideal S32x1 .f32) (bl : FVec Ideal S1 .f32) : FVec Ideal S100000 .f32 :=
  readout
    (Host.dotGeneral (F := Ideal) (φ₁ := .f32) (φ₂ := .f32) dot_S100000x32_S32x1_S100000x1_1_0_0_1_n_n none
      (layer
        (Host.dotGeneral (F := Ideal) (φ₁ := .f32) (φ₂ := .f32) dot_S100000x32_S32x32_S100000x32_1_0_0_1_n_n none
          (layer (Host.dotGeneral (F := Ideal) (φ₁ := .f32) (φ₂ := .f32) dot_S100000x64_S64x32_S100000x32_1_0_0_1_n_n none x w1) ei b1)
          w2)
        ei b2)
      wl)
    bl

theorem result_eq (m : (ℓ : Loc nD τ sig) → Buf (Elt Ideal) ℓ) (c : Dev nD) :
    Cert.ReferenceIdeal.ValueP.res_main_v100 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v100 network readout layer layerOver aggregate pairWeight invSqrt degree asColumn shifted sources targets joined
  rfl

end Cert.ReferenceIdeal.RefValue

end
-- ==== Proof.lean ====
/-
  A two-layer graph convolution with a linear readout, computed two ways: with each of its three dense products tiled over
  ten bands of 10000 node rows by a kernel (the operands passing through a narrower float format on the way in), and with each
  product as one whole contraction. Everything else — adding the self loops, the degrees and their inverse square roots, the
  gather of source rows, their scaling, the scatter-add at the targets, the bias, the clamp at zero, the readout — is the same
  host text in both programs.

  On the extended reals a change of float format is the identity and a tiled product into a zero accumulator is, entry by
  entry, the plain sum Σ_k a[p,k]·b[k,q] that the whole contraction is too; the ten bands tile the result. So each kernel
  region leaves exactly the whole product of the arrays it finds (FirstProduct, SecondProduct, LastProduct), the host stretches
  between them are the shared layer function (Layer, Chain), and both programs end with
  readout(layer(layer(x·W1)·W2)·Wlin) of arguments that agree (RefValue). No law of arithmetic beyond the reading of the two
  products as the same finite sum is needed, so the finiteness of the inputs is never used.

  The three frames: the two kernel programs' are the launch over @main's segments; the reference's is its run with the
  result dropped. Nothing was rewritten on the way to the idealized kernel, so there is nothing to preserve.
-/
import proofs.«173061_j14791867368180_1_alg».proof.Defs
import proofs.«173061_j14791867368180_1_alg».proof.Proof.Gen.Kernel
import proofs.«173061_j14791867368180_1_alg».proof.Proof.Gen.Kernel.Frame
import proofs.«173061_j14791867368180_1_alg».proof.Proof.Gen.KernelIdeal
import proofs.«173061_j14791867368180_1_alg».proof.Proof.Gen.KernelIdeal.Frame
import proofs.«173061_j14791867368180_1_alg».proof.Proof.Gen.ReferenceIdeal
import proofs.«173061_j14791867368180_1_alg».proof.Proof.Gen.Pre_finite_inputs
import proofs.«173061_j14791867368180_1_alg».proof.Proof.KernelRun
import proofs.«173061_j14791867368180_1_alg».proof.Proof.Chain
import proofs.«173061_j14791867368180_1_alg».proof.Proof.RefRun
import proofs.«173061_j14791867368180_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- The reference's three contractions are rows times columns. -/
theorem rows_cols_1 : Cert.KernelIdeal.Chain.RowsTimesCols Cert.ReferenceIdeal.dot_S100000x64_S64x32_S100000x32_1_0_0_1_n_n :=
  ⟨rfl, rfl, rfl, rfl, rfl, rfl⟩
theorem rows_cols_2 : Cert.KernelIdeal.Chain.RowsTimesCols Cert.ReferenceIdeal.dot_S100000x32_S32x32_S100000x32_1_0_0_1_n_n :=
  ⟨rfl, rfl, rfl, rfl, rfl, rfl⟩
theorem rows_cols_3 : Cert.KernelIdeal.Chain.RowsTimesCols Cert.ReferenceIdeal.dot_S100000x32_S32x1_S100000x1_1_0_0_1_n_n :=
  ⟨rfl, rfl, rfl, rfl, rfl, rfl⟩

/-- Both programs end with readout(layer(layer(x·W1)·W2)·Wlin) of their argument arrays, which agree. -/
theorem algebraic : Cert.algebraic_KernelIdeal_ReferenceIdeal := by
  intro m ρ m' ρ' _ hagree
  refine ⟨fun c => Cert.ReferenceIdeal.RefValue.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Chain.result_value m ρ _ rows_cols_1 _ rows_cols_2 _ rows_cols_3 c), (h c).2⟩)
      (Cert.KernelIdeal.WholeRun.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.RefValue.result_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
